-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩

abbrev nBuf : Space → Nat
  | .hbm => 23
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S1600000x1, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S1600000x1, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«123256_j17343077941929_1_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.LayerRows.lean ====
import Idealize.ShloMosaic.PureOps.Ideal
import Idealize.ShloMosaic.Lib.ValueIdx
import proofs.«123256_j17343077941929_1_alg».proof.Proof.LibMatmulRows

/-!
# The dense part of one graph-convolution layer, row by row

For `R` nodes with embeddings of width 128, let `rel` be the neighbourhood aggregate of each node (one row per node),
`emb` the nodes' own embeddings, and `W1`, `W2` two square weight matrices. The layer's output is
`rel · W1 + (rel ⊙ emb) · W2`, where `⊙` is the entrywise product: entry `(n, c)` is
`∑ k, rel (n, k) * W1 (k, c) + ∑ k, (rel (n, k) * emb (n, k)) * W2 (k, c)`.

Row `n` of the output reads row `n` of `rel` and of `emb` and nothing else of them (`layer_row`). So the output
computed on a block of consecutive rows is that block of rows of the output computed on all rows at once, which is all
that a row-tiled evaluation needs. Nothing here uses any law of the extended reals: the two sides of `layer_row` are the
same sums of the same products, so no entry needs to be finite.
-/

noncomputable section

open scoped BigOperators

namespace Cert.LayerRows

open Idealize.ShloMosaic Idealize.ShloMosaic.ValueIdx Cert.LibMatmulRows

/-- `rel · W1 + (rel ⊙ emb) · W2` over `R` rows of width 128. -/
def layer {R : Nat} (rel emb : (⟨2, ![R, 128]⟩ : Shape).Idx → EReal) (W1 W2 : (⟨2, ![128, 128]⟩ : Shape).Idx → EReal) :
    (⟨2, ![R, 128]⟩ : Shape).Idx → EReal :=
  fun i => mmRows rel W1 i + mmRows (fun y => rel y * emb y) W2 i

/-- Entry `(n, c)` of the layer's output, written out. -/
theorem layer_apply {R : Nat} (rel emb : (⟨2, ![R, 128]⟩ : Shape).Idx → EReal)
    (W1 W2 : (⟨2, ![128, 128]⟩ : Shape).Idx → EReal) (n : Fin R) (c : Fin 128) :
    layer rel emb W1 W2 (ix2 n c)
      = (∑ k : Fin 128, rel (ix2 n k) * W1 (ix2 k c)) + ∑ k : Fin 128, (rel (ix2 n k) * emb (ix2 n k)) * W2 (ix2 k c) :=
  rfl

/-- ROW LOCALITY: if row `p` of a block (`relB`, `embB`, of `B` rows) holds row `n` of the arrays (`rel`, `emb`, of
    `R` rows), then row `p` of the block's output is row `n` of the arrays' output. -/
theorem layer_row {R B : Nat} (rel emb : (⟨2, ![R, 128]⟩ : Shape).Idx → EReal)
    (relB embB : (⟨2, ![B, 128]⟩ : Shape).Idx → EReal) (W1 W2 : (⟨2, ![128, 128]⟩ : Shape).Idx → EReal)
    (n : Fin R) (p : Fin B) (hrel : ∀ k : Fin 128, relB (ix2 p k) = rel (ix2 n k))
    (hemb : ∀ k : Fin 128, embB (ix2 p k) = emb (ix2 n k)) (c : Fin 128) :
    layer relB embB W1 W2 (ix2 p c) = layer rel emb W1 W2 (ix2 n c) := by
  rw [layer_apply, layer_apply]
  simp only [hrel, hemb]

end Cert.LayerRows

end
-- ==== Proof.BodyValue.lean ====
import proofs.«123256_j17343077941929_1_alg».proof.Proof.Gen.KernelIdeal.Skeleton
import Idealize.ShloMosaic.Lib.Pipeline.Value
import proofs.«123256_j17343077941929_1_alg».proof.Proof.LayerRows

/-!
# What the kernel body stores, as a function of the blocks it loads

At one grid point the body loads a block of 2000 rows of the neighbourhood aggregate (`x0`) and the same 2000 rows of the
embeddings (`x1`), and both weight matrices whole (`x2`, `x3`). It narrows all four and the entrywise product
`x0 ⊙ x1` to a shorter float format, multiplies `x0 · x2` and `(x0 ⊙ x1) · x3` on the matrix unit, each into an
accumulator of zeros, and stores the sum of the two products.

Over the extended reals a change of float format is the identity and a product accumulated into zeros is the plain sum of
products over the contracted axis, so the stored block is `x0 · x2 + (x0 ⊙ x1) · x3`: the layer's dense part of
`LayerRows` on these 2000 rows.
-/

noncomputable section

namespace Cert.KernelIdeal.BodyValue

open Cert.KernelIdeal Cert.KernelIdeal.Gen Idealize.ShloMosaic Idealize.ShloMosaic.ValueIdx
open Cert.LibMatmulRows Cert.LayerRows

/-- The body's contraction is the plain rows-by-columns one: axis 1 of the left operand against axis 0 of the right. -/
theorem dot_eq_dotRows :
    dot_S2000x128_S128x128_S2000x128_1_0_0_1_n_n
      = dotRows 2000 128 128 Cert.KernelIdeal.Gen.dot_S2000x128_S128x128_S2000x128_1_0_0_1_n_n_wf := rfl

/-- THE STORED BLOCK is the layer's dense part of the loaded blocks. -/
theorem payload_eq (x0 x1 : Vec Ideal S2000x128 .f32) (x2 x3 : Vec Ideal S128x128 .f32) :
    k0_pay1 (F := Ideal) x0 x1 x2 x3 = layer (R := 2000) x0 x1 x2 x3 := by
  unfold k0_pay1
  dsimp only
  rw [shapeCast_self, dot_eq_dotRows]
  unfold matmul
  rw [matmulRows_eq, matmulRows_eq]
  rfl

end Cert.KernelIdeal.BodyValue

end
-- ==== Proof.BlockReads.lean ====
import proofs.«123256_j17343077941929_1_alg».proof.Proof.Gen.KernelIdeal.Frame
import Idealize.ShloMosaic.Lib.Pipeline.Value
import Idealize.ShloMosaic.Lib.ValueIdx

/-!
# The windows' blocks at a grid point, read at an index

The grid has 50 points. At point `t` the two row-tiled input windows (the neighbourhood aggregate and the embeddings)
and the output window sit at block `(t, 0)` of blocks of 2000 × 128, and the two weight windows at block `(0, 0)` of
blocks of 128 × 128, which is the whole matrix. An element of a block sits in its array at block index × block size +
its coordinate inside the block, on each axis. So row `p` of a row-tiled block is row `2000 t + p` of its array, a
weight block is its matrix, and a block of 2000 rows that agrees row by row with rows `2000 t …` of an array `G` is what
reading `G` through the output window's block at `t` gives.

Each fact is first stated for an ARBITRARY array `A` of the window's shape — it is a fact about positions only — and then
read at the array the region finds in that window.
-/

noncomputable section

namespace Cert.KernelIdeal.BlockReads

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem offset_zero : (![0, 0] : Fin 2 → Nat) = fun _ => 0 := funext fun a => by fin_cases a <;> rfl

/-- The printed index maps, decided over the 50 points: the three row-tiled windows sit at block `(t, 0)`, the two weight
    windows at block `(0, 0)`. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Positions: for an arbitrary array -/

/-- Through the first window's block at point `t`, row `p` is row `2000 t + p` of the array. -/
theorem rows_read0 (t : Fin cfg0.N) (A : S100000x128.Idx → EReal) (p : Fin 2000) (n : Fin 100000)
    (hn : n.val = t.val * 2000 + p.val) (k : Fin 128) :
    ((cfg0.win 0).blk t).view.read (Elt Ideal) A (ix2 p k) = A (ix2 n k) := by
  obtain ⟨e0, e1, -⟩ := index_maps t
  show A (((cfg0.win 0).blk t).view.emb (ix2 p k)) = A (ix2 n k)
  refine congrArg A (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- Through the second window's block at point `t`, row `p` is row `2000 t + p` of the array. -/
theorem rows_read1 (t : Fin cfg0.N) (A : S100000x128.Idx → EReal) (p : Fin 2000) (n : Fin 100000)
    (hn : n.val = t.val * 2000 + p.val) (k : Fin 128) :
    ((cfg0.win 1).blk t).view.read (Elt Ideal) A (ix2 p k) = A (ix2 n k) := by
  obtain ⟨-, -, e0, e1, -⟩ := index_maps t
  show A (((cfg0.win 1).blk t).view.emb (ix2 p k)) = A (ix2 n k)
  refine congrArg A (funext fun a => Fin.ext ?_)
  match a with
  | ⟨0, _⟩ => show win0_1.index t (0 : Fin 2) * 2000 + 1 * p.val = n.val; omega
  | ⟨1, _⟩ => show win0_1.index t (1 : Fin 2) * 128 + 1 * k.val = k.val; omega

/-- The third window's block is the whole matrix at every point. -/
theorem whole_read2 (t : Fin cfg0.N) (A : S128x128.Idx → EReal) :
    ((cfg0.win 2).blk t).view.read (Elt Ideal) A = A := by
  obtain ⟨-, -, -, -, e0, e1, -⟩ := index_maps t
  funext y
  show A (((cfg0.win 2).blk t).view.emb y) = A y
  refine congrArg A (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The fourth window's block is the whole matrix at every point. -/
theorem whole_read3 (t : Fin cfg0.N) (A : S128x128.Idx → EReal) :
    ((cfg0.win 3).blk t).view.read (Elt Ideal) A = A := by
  obtain ⟨-, -, -, -, -, -, e0, e1, -⟩ := index_maps t
  funext y
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- A block `L` of 2000 rows that agrees, row by row, with rows `2000 t …` of an array `G` is what reading `G` through
    the output window's block at point `t` gives. -/
theorem rows_block (t : Fin cfg0.N) (L : Vec Ideal S2000x128 .f32) (G : S100000x128.Idx → EReal)
    (h : ∀ (p : Fin 2000) (n : Fin 100000), n.val = t.val * 2000 + p.val → ∀ q : Fin 128, L (ix2 p q) = G (ix2 n q)) :
    (cfg0.win 4).cut (grid0.coords t) L = ((cfg0.win 4).blk t).view.read (Elt Ideal) G := by
  obtain ⟨-, -, -, -, -, -, -, -, e0, e1⟩ := index_maps t
  funext y
  have hy0 : (y 0).val < 2000 := (y 0).isLt
  have hy1 : (y 1).val < 128 := (y 1).isLt
  have ht : t.val < 50 := t.isLt
  have hy : y = ix2 (⟨(y 0).val, hy0⟩ : Fin 2000) (⟨(y 1).val, hy1⟩ : Fin 128) :=
    funext fun a => match a with | ⟨0, _⟩ => rfl | ⟨1, _⟩ => rfl
  have hemb : ((cfg0.win 4).blk t).view.emb y
      = ix2 (⟨t.val * 2000 + (y 0).val, by omega⟩ : Fin 100000) (⟨(y 1).val, hy1⟩ : Fin 128) :=
    funext fun a => Fin.ext (by
      match a with
      | ⟨0, _⟩ => show win0_4.index t (0 : Fin 2) * 2000 + 1 * (y 0).val = t.val * 2000 + (y 0).val; omega
      | ⟨1, _⟩ => show win0_4.index t (1 : Fin 2) * 128 + 1 * (y 1).val = (y 1).val; omega)
  show L y = G (((cfg0.win 4).blk t).view.emb y)
  rw [hemb]
  exact (congrArg L hy).trans (h _ _ rfl _)

/-! ## The blocks of the arrays the region finds -/

/-- Row `p` of point `t`'s block of the aggregate is row `2000 t + p` of the aggregate. -/
theorem aggregate_block (c : Dev nD) (t : Fin cfg0.N) (p : Fin 2000) (n : Fin 100000) (hn : n.val = t.val * 2000 + p.val)
    (k : Fin 128) : iblk m c 0 t (ix2 p k) = V m c main_v12 (ix2 n k) :=
  rows_read0 t (V m c main_v12) p n hn k

/-- Row `p` of point `t`'s block of the embeddings is row `2000 t + p` of the embeddings. -/
theorem embeddings_block (c : Dev nD) (t : Fin cfg0.N) (p : Fin 2000) (n : Fin 100000) (hn : n.val = t.val * 2000 + p.val)
    (k : Fin 128) : iblk m c 1 t (ix2 p k) = V m c main_arg0 (ix2 n k) :=
  rows_read1 t (V m c main_arg0) p n hn k

/-- Every point's block of the first weight matrix is the whole matrix. -/
theorem weights1_block (c : Dev nD) (t : Fin cfg0.N) : iblk m c 2 t = V m c main_arg4 :=
  whole_read2 t (V m c main_arg4)

/-- Every point's block of the second weight matrix is the whole matrix. -/
theorem weights2_block (c : Dev nD) (t : Fin cfg0.N) : iblk m c 3 t = V m c main_arg5 :=
  whole_read3 t (V m c main_arg5)

end Cert.KernelIdeal.BlockReads

end
-- ==== Proof.RegionEntry.lean ====
import proofs.«123256_j17343077941929_1_alg».proof.Proof.Gen.KernelIdeal.Frame
import proofs.«123256_j17343077941929_1_alg».proof.Proof.Gen.ReferenceIdeal.Read
import Idealize.ShloMosaic.Lib.StableHlo.Run

/-!
# What the kernel's region finds in its first window

Before its one region the kernel's host program computes the neighbourhood aggregate with the very operations the
reference uses: it wraps negative column numbers, gathers those rows of the embeddings, scales each gathered row by its
edge's weight, and scatter-adds the scaled rows into an array of zeros at the edges' row numbers. The region's first
window stages that array. So what the region finds there is the reference's aggregate of the same four arguments — the
same operations with the same dimension numbers and the same literals, composed in the same order.
-/

noncomputable section

namespace Cert.KernelIdeal.RegionEntry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The array the first window stages is the reference's aggregate of the arguments as launched. -/
theorem V_aggregate (c : Dev nD) :
    (V m c main_v12 : S100000x128.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results
  rfl

end Cert.KernelIdeal.RegionEntry

end
-- ==== Proof.WholeArray.lean ====
import proofs.«123256_j17343077941929_1_alg».proof.Proof.Gen.KernelIdeal.Value
import proofs.«123256_j17343077941929_1_alg».proof.Proof.BodyValue
import proofs.«123256_j17343077941929_1_alg».proof.Proof.BlockReads
import proofs.«123256_j17343077941929_1_alg».proof.Proof.RegionEntry

/-!
# From the blocks the grid points write to the whole result array

Point `t` of the grid's 50 stages rows `2000 t … 2000 t + 1999` of the neighbourhood aggregate and of the embeddings,
both weight matrices whole, and writes back rows `2000 t … 2000 t + 1999` of the result. What it writes is the layer's
dense part of the staged rows (`BodyValue.payload_eq`), which by row locality (`LayerRows.layer_row`) is that block of
rows of the layer's dense part of the whole arrays (`flushed_eq`). The 50 blocks of rows cover all 100000 rows — row
`r` lies in the block of point `r / 2000` (`cover`) — so after the run the result array is the layer's dense part of
the arrays the region found (`final`), and those are the reference's aggregate of the arguments
(`RegionEntry.V_aggregate`) and the arguments themselves (`run`).
-/

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)
open Cert.LayerRows Cert.KernelIdeal.BodyValue Cert.KernelIdeal.BlockReads Cert.KernelIdeal.RegionEntry

variable (m : (ℓ : Loc nD τ sig) → Buf (Elt Ideal) ℓ) (ρ : Dev nD → PrngReg)

/-- The layer's dense part of what the region finds in its four input windows' arrays. -/
def found (c : Dev nD) : S100000x128.Idx → EReal :=
  layer (R := 100000) (V m c main_v12) (V m c main_arg0) (V m c main_arg4) (V m c main_arg5)

/-- WHAT POINT `t` WRITES BACK is block `t` of the layer's dense part of the arrays the region found. -/
theorem flushed_eq (c : Dev nD) (t : Fin cfg0.N) :
    (dats m 0 c).flushed 4 t = ((cfg0.win 4).blk t).view.read (Elt Ideal) (found m c) := by
  rw [Value.flushed4]
  unfold out0_4
  rw [View.canon_unit_zero offset_zero]
  simp only [View.ld_unit_zero (S := S2000x128) offset_zero, View.ld_unit_zero (S := S128x128) offset_zero]
  rw [payload_eq (iblk m c 0 t) (iblk m c 1 t) (iblk m c 2 t) (iblk m c 3 t), weights1_block m c t, weights2_block m c t]
  unfold found
  exact rows_block t _ _ (fun p n hn q =>
    layer_row (V m c main_v12) (V m c main_arg0) (iblk m c 0 t) (iblk m c 1 t) (V m c main_arg4) (V m c main_arg5) n p
      (fun k => aggregate_block m c t p n hn k) (fun k => embeddings_block m c t p n hn k) q)

/-- An index of the result array is in point `t`'s block iff each coordinate is in the block's range on its axis. -/
theorem mem_block (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v13).slice (win0_4.rect t)).set ↔ _
  rw [View.set_slice_whole, Rect.mem_set_unit]
  exact Iff.rfl

/-- THE BLOCKS COVER THE ARRAY: row `r` lies in the block of point `r / 2000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 2000 < cfg0.N := by show (i 0).val / 2000 < 50; omega
  refine ⟨⟨(i 0).val / 2000, hN⟩, flush0_4 _, ?_⟩
  obtain ⟨-, -, -, -, -, -, -, -, e0, e1⟩ := index_maps ⟨(i 0).val / 2000, hN⟩
  rw [mem_block]
  intro a
  match a with
  | ⟨0, _⟩ =>
    show win0_4.index ⟨(i 0).val / 2000, hN⟩ (0 : Fin 2) * 2000 ≤ (i 0).val
      ∧ (i 0).val < win0_4.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_4.index ⟨(i 0).val / 2000, hN⟩ (1 : Fin 2) * 128 ≤ (i 1).val
      ∧ (i 1).val < win0_4.index ⟨(i 0).val / 2000, hN⟩ (1 : Fin 2) * 128 + 128
    rw [e1]
    omega

/-- THE RESULT ARRAY after the run is the layer's dense part of the arrays the region found. -/
theorem final (c : Dev nD) : (dats m 0 c).arrAt 4 cfg0.N = found m c :=
  (dats m 0 c).arrAt_eq_of_cover 4 (found m c) (fun t _ => flushed_eq m c t) cover

/-- What the region found, named: the reference's aggregate of the arguments as launched, and three of the arguments. -/
theorem found_eq (c : Dev nD) :
    found m c = layer (R := 100000)
      (Cert.ReferenceIdeal.Read.val_main_v12 (F := Ideal) (m ((c : Thread nD τ).loc main_arg0))
        (m ((c : Thread nD τ).loc main_arg1)) (m ((c : Thread nD τ).loc main_arg2)) (m ((c : Thread nD τ).loc main_arg3)))
      (m ((c : Thread nD τ).loc main_arg0)) (m ((c : Thread nD τ).loc main_arg4)) (m ((c : Thread nD τ).loc main_arg5)) := by
  unfold found
  rw [V_aggregate m c, V_main_arg0 m c, V_main_arg4 m c, V_main_arg5 m c]

/-- The kernel's run, read: the result is the layer's dense part of the reference's aggregate of the arguments and of the
    arguments themselves; the arguments end as launched. -/
theorem run : θ_run defs (onTc (τ := τ) (main (F := Ideal))) ⟨m, fun _ => 0, ρ⟩ fun r => ∀ c : Dev nD,
      r.2.mem ((c : Thread nD τ).loc main_v13)
        = layer (R := 100000)
            (Cert.ReferenceIdeal.Read.val_main_v12 (F := Ideal) (m ((c : Thread nD τ).loc main_arg0))
              (m ((c : Thread nD τ).loc main_arg1)) (m ((c : Thread nD τ).loc main_arg2)) (m ((c : Thread nD τ).loc main_arg3)))
            (m ((c : Thread nD τ).loc main_arg0)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (found_eq m c)), (h c).2⟩)
    (Value.run_blocks m ρ)

end Cert.KernelIdeal.WholeArray

end
-- ==== Proof.ReferenceValue.lean ====
import proofs.«123256_j17343077941929_1_alg».proof.Proof.Gen.ReferenceIdeal.Read
import proofs.«123256_j17343077941929_1_alg».proof.Proof.LayerRows

/-!
# The reference's result, as a function of its neighbourhood aggregate and its arguments

After the aggregate `rel` (the reference's scatter-add of gathered, weighted rows) the reference computes
`rel · W1`, the entrywise product `rel ⊙ emb`, `(rel ⊙ emb) · W2`, and their sum, each on all 100000 rows at once.
Over the extended reals the host's contraction is the plain sum of products over the contracted axis, so the result is the
layer's dense part of `LayerRows` on all rows, with `rel` left as whatever the earlier operations made it.
-/

noncomputable section

namespace Cert.ReferenceIdeal.RefValue

open Cert.ReferenceIdeal Cert.ReferenceIdeal.Read Idealize.ShloMosaic Idealize.ShloMosaic.ValueIdx
open Cert.LibMatmulRows Cert.LayerRows

/-- The reference's contraction is the plain rows-by-columns one. -/
theorem dot_eq_dotRows :
    dot_S100000x128_S128x128_S100000x128_1_0_0_1_n_n
      = dotRows 100000 128 128 Cert.ReferenceIdeal.Gen.dot_S100000x128_S128x128_S100000x128_1_0_0_1_n_n_wf := rfl

/-- THE REFERENCE'S RESULT is the layer's dense part of its aggregate and its arguments. -/
theorem result_eq (x0 : (⟨S100000x128, .f32⟩ : BufTy).Contents (Elt Ideal))
    (x1 x2 : (⟨S1600000, .i32⟩ : BufTy).Contents (Elt Ideal)) (x3 : (⟨S1600000, .f32⟩ : BufTy).Contents (Elt Ideal))
    (x4 x5 : (⟨S128x128, .f32⟩ : BufTy).Contents (Elt Ideal)) :
    val_main_v16 (F := Ideal) x0 x1 x2 x3 x4 x5
      = layer (R := 100000) (val_main_v12 (F := Ideal) x0 x1 x2 x3) x0 x4 x5 := by
  unfold val_main_v16 val_main_v13 val_main_v15 val_main_v14
  generalize val_main_v12 (F := Ideal) x0 x1 x2 x3 = rel
  rw [dot_eq_dotRows]
  unfold Host.dotGeneral
  rw [dotGeneralRows_eq, dotGeneralRows_eq]
  rfl

end Cert.ReferenceIdeal.RefValue

end
-- ==== Proof.lean ====
/-
  A graph-convolution layer: the kernel against its reference, over the extended reals.

  Both programs first form the neighbourhood aggregate `rel` of every node — gather the embeddings' rows at the edges'
  column numbers (negative numbers wrapped), scale each gathered row by its edge's weight, scatter-add the scaled rows
  into zeros at the edges' row numbers — with the same host operations, the same dimension numbers and the same
  literals. They differ only in how the dense part `rel · W1 + (rel ⊙ emb) · W2` (`⊙` the entrywise product with the
  nodes' own embeddings) is evaluated: the reference on all 100000 rows at once with two host contractions; the kernel
  in 50 blocks of 2000 rows, each block on the matrix unit after narrowing its operands to a shorter float format and
  accumulating into zeros.

  Over the extended reals a change of float format is the identity and either contraction is the plain sum of products
  over the contracted axis, so each side is the function `LayerRows.layer` of the aggregate, the embeddings and the two
  weight matrices: the reference by `ReferenceValue.result_eq`; the kernel block by block by `BodyValue.payload_eq`,
  the blocks assembled by row locality and the cover of the rows in `WholeArray.run`, the aggregate the region finds
  identified with the reference's in `RegionEntry.V_aggregate`. The two results are then the same sums of the same
  products: no algebraic law of the extended reals is used and the precondition (finite inputs) is never opened.

  The ideal pass rewrote no operation, so the idealization conjunct is `True`.
-/
import proofs.«123256_j17343077941929_1_alg».proof.Defs
import proofs.«123256_j17343077941929_1_alg».proof.Proof.Gen.Kernel
import proofs.«123256_j17343077941929_1_alg».proof.Proof.Gen.Kernel.Skeleton
import proofs.«123256_j17343077941929_1_alg».proof.Proof.Gen.Kernel.Launch
import proofs.«123256_j17343077941929_1_alg».proof.Proof.Gen.Kernel.Points
import proofs.«123256_j17343077941929_1_alg».proof.Proof.Gen.Kernel.Frame
import proofs.«123256_j17343077941929_1_alg».proof.Proof.Gen.KernelIdeal
import proofs.«123256_j17343077941929_1_alg».proof.Proof.Gen.KernelIdeal.Skeleton
import proofs.«123256_j17343077941929_1_alg».proof.Proof.Gen.KernelIdeal.Launch
import proofs.«123256_j17343077941929_1_alg».proof.Proof.Gen.KernelIdeal.Points
import proofs.«123256_j17343077941929_1_alg».proof.Proof.Gen.KernelIdeal.Frame
import proofs.«123256_j17343077941929_1_alg».proof.Proof.Gen.ReferenceIdeal
import proofs.«123256_j17343077941929_1_alg».proof.Proof.Gen.KernelIdeal.Value
import proofs.«123256_j17343077941929_1_alg».proof.Proof.Gen.ReferenceIdeal.Run
import proofs.«123256_j17343077941929_1_alg».proof.Proof.Gen.ReferenceIdeal.Read
import proofs.«123256_j17343077941929_1_alg».proof.Proof.Gen.Pre_finite_inputs
import proofs.«123256_j17343077941929_1_alg».proof.Proof.WholeArray
import proofs.«123256_j17343077941929_1_alg».proof.Proof.ReferenceValue
import Idealize.ShloMosaic.Adequacy
import Idealize.ShloMosaic.Init

noncomputable section

namespace Cert.Proof

open Idealize.ShloMosaic Idealize.SL.Sem

/-- The kernel as printed runs, nothing faulting, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories that agree on the six arguments, the kernel's result array and the reference's are the layer's dense
    part of the same aggregate, the same embeddings and the same two weight matrices. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
